-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v25) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x256x512 : Shape := ⟨3, ![4, 256, 512]⟩
abbrev S4x64x512 : Shape := ⟨3, ![4, 64, 512]⟩
abbrev S512x1024 : Shape := ⟨2, ![512, 1024]⟩
abbrev S512 : Shape := ⟨1, ![512]⟩
abbrev S1024x512 : Shape := ⟨2, ![1024, 512]⟩
abbrev S_ : Shape := ⟨0, ![]⟩

class Facts : Prop where
  bcast_S_S4x256x512 : S_.BroadcastsInDim S4x256x512 (![] : Fin 0 → Fin S4x256x512.rank)
  reducesTo_S4x256x512_S_d0_1_2 : S4x256x512.ReducesTo [0, 1, 2] S_
  h_S_ : 0 < S_.numel
  bcast_S_S4x64x512 : S_.BroadcastsInDim S4x64x512 (![] : Fin 0 → Fin S4x64x512.rank)
  reducesTo_S4x64x512_S_d0_1_2 : S4x64x512.ReducesTo [0, 1, 2] S_
  bcast_S_S512x1024 : S_.BroadcastsInDim S512x1024 (![] : Fin 0 → Fin S512x1024.rank)
  reducesTo_S512x1024_S_d0_1 : S512x1024.ReducesTo [0, 1] S_
  bcast_S_S512 : S_.BroadcastsInDim S512 (![] : Fin 0 → Fin S512.rank)
  reducesTo_S512_S_d0 : S512.ReducesTo [0] S_
  bcast_S_S1024x512 : S_.BroadcastsInDim S1024x512 (![] : Fin 0 → Fin S1024x512.rank)
  reducesTo_S1024x512_S_d0_1 : S1024x512.ReducesTo [0, 1] S_

variable [Facts]

def fn_part1 {F : FTy → Type} [FloatOps F] (main_arg4 : FVec F S1024x512 .f32) (main_v13 : IVec S_ 1) (main_v16 : IVec S512 1) : IVec S_ 1 :=
  let main_c_5 : IVec S_ 1 := constantI S_ 1 1#1
  let main_v17 : IVec S_ 1 := (fun x v => Host.reduce IntOp.andi x v reducesTo_S512_S_d0 h_S_) main_v16 main_c_5
  let main_v18 : IVec S_ 1 := andi main_v13 main_v17
  let main_v19 : FVec F S1024x512 .f32 := Host.absf main_arg4
  let main_cst_6 : FVec F S_ .f32 := constant S_ .f32 0x7F800000#32
  let main_v20 : FVec F S1024x512 .f32 := broadcastInDim S1024x512 ![] bcast_S_S1024x512 main_cst_6
  let main_v21 : IVec S1024x512 1 := cmpf .olt main_v19 main_v20
  let main_c_7 : IVec S_ 1 := constantI S_ 1 1#1
  let main_v22 : IVec S_ 1 := (fun x v => Host.reduce IntOp.andi x v reducesTo_S1024x512_S_d0_1 h_S_) main_v21 main_c_7
  let main_v23 : IVec S_ 1 := andi main_v18 main_v22
  main_v23

def fn {F : FTy → Type} [FloatOps F] (main_arg0 : FVec F S4x256x512 .f32) (main_arg1 : FVec F S4x64x512 .f32) (main_arg2 : FVec F S512x1024 .f32) (main_arg3 : FVec F S512 .f32) (main_arg4 : FVec F S1024x512 .f32) : IVec S_ 1 :=
  let main_v0 : FVec F S4x256x512 .f32 := Host.absf main_arg0
  let main_cst : FVec F S_ .f32 := constant S_ .f32 0x7F800000#32
  let main_v1 : FVec F S4x256x512 .f32 := broadcastInDim S4x256x512 ![] bcast_S_S4x256x512 main_cst
  let main_v2 : IVec S4x256x512 1 := cmpf .olt main_v0 main_v1
  let main_c : IVec S_ 1 := constantI S_ 1 1#1
  let main_v3 : IVec S_ 1 := (fun x v => Host.reduce IntOp.andi x v reducesTo_S4x256x512_S_d0_1_2 h_S_) main_v2 main_c
  let main_v4 : FVec F S4x64x512 .f32 := Host.absf main_arg1
  let main_cst_0 : FVec F S_ .f32 := constant S_ .f32 0x7F800000#32
  let main_v5 : FVec F S4x64x512 .f32 := broadcastInDim S4x64x512 ![] bcast_S_S4x64x512 main_cst_0
  let main_v6 : IVec S4x64x512 1 := cmpf .olt main_v4 main_v5
  let main_c_1 : IVec S_ 1 := constantI S_ 1 1#1
  let main_v7 : IVec S_ 1 := (fun x v => Host.reduce IntOp.andi x v reducesTo_S4x64x512_S_d0_1_2 h_S_) main_v6 main_c_1
  let main_v8 : IVec S_ 1 := andi main_v3 main_v7
  let main_v9 : FVec F S512x1024 .f32 := Host.absf main_arg2
  let main_cst_2 : FVec F S_ .f32 := constant S_ .f32 0x7F800000#32
  let main_v10 : FVec F S512x1024 .f32 := broadcastInDim S512x1024 ![] bcast_S_S512x1024 main_cst_2
  let main_v11 : IVec S512x1024 1 := cmpf .olt main_v9 main_v10
  let main_c_3 : IVec S_ 1 := constantI S_ 1 1#1
  let main_v12 : IVec S_ 1 := (fun x v => Host.reduce IntOp.andi x v reducesTo_S512x1024_S_d0_1 h_S_) main_v11 main_c_3
  let main_v13 : IVec S_ 1 := andi main_v8 main_v12
  let main_v14 : FVec F S512 .f32 := Host.absf main_arg3
  let main_cst_4 : FVec F S_ .f32 := constant S_ .f32 0x7F800000#32
  let main_v15 : FVec F S512 .f32 := broadcastInDim S512 ![] bcast_S_S512 main_cst_4
  let main_v16 : IVec S512 1 := cmpf .olt main_v14 main_v15
  fn_part1 (F := F) main_arg4 main_v13 main_v16
-- ==== Kernel.lean ====
abbrev S4x256x512 : Shape := ⟨3, ![4, 256, 512]⟩
abbrev S4x64x512 : Shape := ⟨3, ![4, 64, 512]⟩
abbrev S512x1024 : Shape := ⟨2, ![512, 1024]⟩
abbrev S512 : Shape := ⟨1, ![512]⟩
abbrev S1024x512 : Shape := ⟨2, ![1024, 512]⟩
abbrev S512x512 : Shape := ⟨2, ![512, 512]⟩
abbrev S1x512 : Shape := ⟨2, ![1, 512]⟩
abbrev S4x256x64x1024 : Shape := ⟨4, ![4, 256, 64, 1024]⟩
abbrev S1x16x512 : Shape := ⟨3, ![1, 16, 512]⟩
abbrev S1x64x512 : Shape := ⟨3, ![1, 64, 512]⟩
abbrev S1x16x64x1024 : Shape := ⟨4, ![1, 16, 64, 1024]⟩
abbrev S16x512 : Shape := ⟨2, ![16, 512]⟩
abbrev S64x512 : Shape := ⟨2, ![64, 512]⟩
abbrev S16x1x512 : Shape := ⟨3, ![16, 1, 512]⟩
abbrev S16x64x512 : Shape := ⟨3, ![16, 64, 512]⟩
abbrev S1x1x512 : Shape := ⟨3, ![1, 1, 512]⟩
abbrev S1024x1024 : Shape := ⟨2, ![1024, 1024]⟩
abbrev S16x64x1024 : Shape := ⟨3, ![16, 64, 1024]⟩

abbrev nBuf : Space → Nat
  | .hbm => 12
  | .vmem => 10
  | .smem => 0
  | _ => 0

abbrev bufTy : (tb : Table) → Fin (tcTables nBuf tb) → BufTy
  | .hbm, ⟨0, _⟩ => ⟨S4x256x512, .f32⟩
  | .hbm, ⟨1, _⟩ => ⟨S4x64x512, .f32⟩
  | .hbm, ⟨2, _⟩ => ⟨S512x1024, .f32⟩
  | .hbm, ⟨3, _⟩ => ⟨S512, .f32⟩
  | .hbm, ⟨4, _⟩ => ⟨S1024x512, .f32⟩
  | .hbm, ⟨5, _⟩ => ⟨S512x512, .f32⟩
  | .hbm, ⟨6, _⟩ => ⟨S512x512, .f32⟩
  | .hbm, ⟨7, _⟩ => ⟨S512x512, .f32⟩
  | .hbm, ⟨8, _⟩ => ⟨S512x512, .f32⟩
  | .hbm, ⟨9, _⟩ => ⟨S512x1024, .f32⟩
  | .hbm, ⟨10, _⟩ => ⟨S1x512, .f32⟩
  | .hbm, ⟨11, _⟩ => ⟨S4x256x64x1024, .f32⟩
  | .local _ .vmem, ⟨0, _⟩ => ⟨S1x16x512, .f32⟩
  | .local _ .vmem, ⟨1, _⟩ => ⟨S1x16x512, .f32⟩
  | .local _ .vmem, ⟨2, _⟩ => ⟨S1x64x512, .f32⟩
  | .local _ .vmem, ⟨3, _⟩ => ⟨S1x64x512, .f32⟩
  | .local _ .vmem, ⟨4, _⟩ => ⟨S512x512, .f32⟩
  | .local _ .vmem, ⟨5, _⟩ => ⟨S512x512, .f32⟩
  | .local _ .vmem, ⟨6, _⟩ => ⟨S1x512, .f32⟩
  | .local _ .vmem, ⟨7, _⟩ => ⟨S512x1024, .f32⟩
  | .local _ .vmem, ⟨8, _⟩ => ⟨S1x16x64x1024, .f32⟩
  | .local _ .vmem, ⟨9, _⟩ => ⟨S1x16x64x1024, .f32⟩
  | _, _ => ⟨S4x256x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9

abbrev nD : Nat := 1
abbrev τ : Topo := Topo.v7x

variable {F : FTy → Type} [FloatOps F]

abbrev grid0 : Pipeline.Grid := ⟨2, ![4, 16], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

abbrev stage0_0 : Fin 2 → Memref sig .tc .vmem S1x16x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x64x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 1 → Memref sig .tc .vmem S512x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S512x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S512x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S1x16x64x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

class Facts₀ : Prop where
  slices_S512x1024_S512x512_0_0 : S512x1024.Slices ![0, 0] S512x512
  transposes_S512x512_S512x512_1_0 : S512x512.Transposes [1, 0] S512x512
  slices_S512x1024_S512x512_0_512 : S512x1024.Slices ![0, 512] S512x512
  transposes_S1024x512_S512x1024_1_0 : S1024x512.Transposes [1, 0] S512x1024
  shapeCasts_S512_S1x512 : S512.ShapeCasts S1x512
  inb_S1x16x512_S1x16x512_0_0_0 : ∀ a, (![0, 0, 0] : Fin 3 → Nat) a + S1x16x512.size a ≤ S1x16x512.size a
  h_S1x16x512 : 0 < S1x16x512.numel
  shapeCasts_S1x16x512_S16x512 : S1x16x512.ShapeCasts S16x512
  bitsLt_bf16_f32 : FTy.bits .bf16 < FTy.bits .f32
  inb_S1x64x512_S1x64x512_0_0_0 : ∀ a, (![0, 0, 0] : Fin 3 → Nat) a + S1x64x512.size a ≤ S1x64x512.size a
  h_S1x64x512 : 0 < S1x64x512.numel
  shapeCasts_S1x64x512_S64x512 : S1x64x512.ShapeCasts S64x512
  inb_S512x512_S512x512_0_0 : ∀ a, (![0, 0] : Fin 2 → Nat) a + S512x512.size a ≤ S512x512.size a
  h_S512x512 : 0 < S512x512.numel
  shapeCasts_S512x512_S512x512 : S512x512.ShapeCasts S512x512
  inb_S512x1024_S512x1024_0_0 : ∀ a, (![0, 0] : Fin 2 → Nat) a + S512x1024.size a ≤ S512x1024.size a
  h_S512x1024 : 0 < S512x1024.numel
  shapeCasts_S512x1024_S512x1024 : S512x1024.ShapeCasts S512x1024
  shapeCasts_S16x512_S16x1x512 : S16x512.ShapeCasts S16x1x512
  shapeCasts_S64x512_S1x64x512 : S64x512.ShapeCasts S1x64x512
  broadcasts_S16x1x512_S16x64x512 : S16x1x512.Broadcasts S16x64x512
  broadcasts_S1x64x512_S16x64x512 : S1x64x512.Broadcasts S16x64x512
  inb_S1x512_S1x512_0_0 : ∀ a, (![0, 0] : Fin 2 → Nat) a + S1x512.size a ≤ S1x512.size a
  h_S1x512 : 0 < S1x512.numel
  shapeCasts_S1x512_S1x512 : S1x512.ShapeCasts S1x512
  shapeCasts_S1x512_S1x1x512 : S1x512.ShapeCasts S1x1x512
  broadcasts_S1x1x512_S16x64x512 : S1x1x512.Broadcasts S16x64x512
  shapeCasts_S16x64x512_S1024x512 : S16x64x512.ShapeCasts S1024x512
  shapeCasts_S1024x1024_S16x64x1024 : S1024x1024.ShapeCasts S16x64x1024
  inb_S1x16x64x1024_S1x16x64x1024_0_0_0_0 : ∀ a, (![0, 0, 0, 0] : Fin 4 → Nat) a + S1x16x64x1024.size a ≤ S1x16x64x1024.size a
  h_S1x16x64x1024 : 0 < S1x16x64x1024.numel
  shapeCasts_S1x16x64x1024_S16x64x1024 : S1x16x64x1024.ShapeCasts S16x64x1024
  shapeCasts_S16x64x1024_S1x16x64x1024 : S16x64x1024.ShapeCasts S1x16x64x1024
  dot_S16x512_S512x512_S16x512_1_0_0_1_n_n_wf : DotDims.WF S16x512 S512x512 S16x512 [1] [0] [0] [1] [] []
  dot_S64x512_S512x512_S64x512_1_0_0_1_n_n_wf : DotDims.WF S64x512 S512x512 S64x512 [1] [0] [0] [1] [] []
  dot_S1024x512_S512x1024_S1024x1024_1_0_0_1_n_n_wf : DotDims.WF S1024x512 S512x1024 S1024x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x16x512.size a ≤ S4x256x512.size a
  hwx0_0 : ∀ i : grid0.Coords, EltTy.bits .f32 = 32 ∨ (Rect.block (s := S4x256x512) S1x16x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x64x512.size a ≤ S4x64x512.size a
  hwx0_1 : ∀ i : grid0.Coords, EltTy.bits .f32 = 32 ∨ (Rect.block (s := S4x64x512) S1x64x512.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S512x512.size a ≤ S512x512.size a
  hwx0_2 : ∀ i : grid0.Coords, EltTy.bits .f32 = 32 ∨ (Rect.block (s := S512x512) S512x512.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S512x512.size a ≤ S512x512.size a
  hwx0_3 : ∀ i : grid0.Coords, EltTy.bits .f32 = 32 ∨ (Rect.block (s := S512x512) S512x512.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x512.size a ≤ S1x512.size a
  hwx0_4 : ∀ i : grid0.Coords, EltTy.bits .f32 = 32 ∨ (Rect.block (s := S1x512) S1x512.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S512x1024.size a ≤ S512x1024.size a
  hwx0_5 : ∀ i : grid0.Coords, EltTy.bits .f32 = 32 ∨ (Rect.block (s := S512x1024) S512x1024.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S1x16x64x1024.size a ≤ S4x256x64x1024.size a
  hwx0_6 : ∀ i : grid0.Coords, EltTy.bits .f32 = 32 ∨ (Rect.block (s := S4x256x64x1024) S1x16x64x1024.size (cc0_transform_6 i) (hinb0_6 i)).WholeWords (EltTy.packing .f32)

variable [Facts₀]

def dot_S16x512_S512x512_S16x512_1_0_0_1_n_n : DotDims S16x512 S512x512 S16x512 where
  lhsContracting := [1]
  rhsContracting := [0]
  lhsNonContracting := [0]
  rhsNonContracting := [1]
  lhsBatch := []
  rhsBatch := []
  wf := dot_S16x512_S512x512_S16x512_1_0_0_1_n_n_wf
def dot_S64x512_S512x512_S64x512_1_0_0_1_n_n : DotDims S64x512 S512x512 S64x512 where
  lhsContracting := [1]
  rhsContracting := [0]
  lhsNonContracting := [0]
  rhsNonContracting := [1]
  lhsBatch := []
  rhsBatch := []
  wf := dot_S64x512_S512x512_S64x512_1_0_0_1_n_n_wf
def dot_S1024x512_S512x1024_S1024x1024_1_0_0_1_n_n : DotDims S1024x512 S512x1024 S1024x1024 where
  lhsContracting := [1]
  rhsContracting := [0]
  lhsNonContracting := [0]
  rhsNonContracting := [1]
  lhsBatch := []
  rhsBatch := []
  wf := dot_S1024x512_S512x1024_S1024x1024_1_0_0_1_n_n_wf

abbrev win0_0 : Pipeline.Window sig grid0 :=
  Pipeline.Window.ofSpec (Memref.whole main_arg0) S1x16x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x64x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v1) S512x512.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v3) S512x512.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v5) S1x512.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v4) S512x1024.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v6) S1x16x64x1024.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

class Facts : Prop extends Facts₀ where

variable [Facts]
-- ==== ReferenceIdeal.lean ====
abbrev S4x256x512 : Shape := ⟨3, ![4, 256, 512]⟩
abbrev S4x64x512 : Shape := ⟨3, ![4, 64, 512]⟩
abbrev S512x1024 : Shape := ⟨2, ![512, 1024]⟩
abbrev S512 : Shape := ⟨1, ![512]⟩
abbrev S1024x512 : Shape := ⟨2, ![1024, 512]⟩
abbrev S512x512 : Shape := ⟨2, ![512, 512]⟩
abbrev S4x256x1x512 : Shape := ⟨4, ![4, 256, 1, 512]⟩
abbrev S4x1x64x512 : Shape := ⟨4, ![4, 1, 64, 512]⟩
abbrev S4x256x64x512 : Shape := ⟨4, ![4, 256, 64, 512]⟩
abbrev S1x1x1x512 : Shape := ⟨4, ![1, 1, 1, 512]⟩
abbrev S_ : Shape := ⟨0, ![]⟩
abbrev S4x256x64x1024 : Shape := ⟨4, ![4, 256, 64, 1024]⟩

abbrev nBuf : Space → Nat
  | .hbm => 35
  | .vmem => 0
  | .smem => 0
  | _ => 0

abbrev bufTy : (tb : Table) → Fin (tcTables nBuf tb) → BufTy
  | .hbm, ⟨0, _⟩ => ⟨S4x256x512, .f32⟩
  | .hbm, ⟨1, _⟩ => ⟨S4x64x512, .f32⟩
  | .hbm, ⟨2, _⟩ => ⟨S512x1024, .f32⟩
  | .hbm, ⟨3, _⟩ => ⟨S512, .f32⟩
  | .hbm, ⟨4, _⟩ => ⟨S1024x512, .f32⟩
  | .hbm, ⟨5, _⟩ => ⟨S512x512, .f32⟩
  | .hbm, ⟨6, _⟩ => ⟨S512x512, .f32⟩
  | .hbm, ⟨7, _⟩ => ⟨S4x256x512, .f32⟩
  | .hbm, ⟨8, _⟩ => ⟨S4x64x512, .f32⟩
  | .hbm, ⟨9, _⟩ => ⟨S4x256x1x512, .f32⟩
  | .hbm, ⟨10, _⟩ => ⟨S4x1x64x512, .f32⟩
  | .hbm, ⟨11, _⟩ => ⟨S4x256x64x512, .f32⟩
  | .hbm, ⟨12, _⟩ => ⟨S4x256x64x512, .f32⟩
  | .hbm, ⟨13, _⟩ => ⟨S4x256x64x512, .f32⟩
  | .hbm, ⟨14, _⟩ => ⟨S1x1x1x512, .f32⟩
  | .hbm, ⟨15, _⟩ => ⟨S4x256x64x512, .f32⟩
  | .hbm, ⟨16, _⟩ => ⟨S4x256x64x512, .f32⟩
  | .hbm, ⟨17, _⟩ => ⟨S4x256x64x512, .f32⟩
  | .hbm, ⟨18, _⟩ => ⟨S4x256x64x512, .f32⟩
  | .hbm, ⟨19, _⟩ => ⟨S_, .f32⟩
  | .hbm, ⟨20, _⟩ => ⟨S4x256x64x512, .f32⟩
  | .hbm, ⟨21, _⟩ => ⟨S4x256x64x512, .f32⟩
  | .hbm, ⟨22, _⟩ => ⟨S4x256x64x512, .f32⟩
  | .hbm, ⟨23, _⟩ => ⟨S_, .f32⟩
  | .hbm, ⟨24, _⟩ => ⟨S4x256x64x512, .f32⟩
  | .hbm, ⟨25, _⟩ => ⟨S4x256x64x512, .f32⟩
  | .hbm, ⟨26, _⟩ => ⟨S4x256x64x512, .f32⟩
  | .hbm, ⟨27, _⟩ => ⟨S_, .f32⟩
  | .hbm, ⟨28, _⟩ => ⟨S4x256x64x512, .f32⟩
  | .hbm, ⟨29, _⟩ => ⟨S4x256x64x512, .f32⟩
  | .hbm, ⟨30, _⟩ => ⟨S_, .f32⟩
  | .hbm, ⟨31, _⟩ => ⟨S4x256x64x512, .f32⟩
  | .hbm, ⟨32, _⟩ => ⟨S4x256x64x512, .f32⟩
  | .hbm, ⟨33, _⟩ => ⟨S4x256x64x512, .f32⟩
  | .hbm, ⟨34, _⟩ => ⟨S4x256x64x1024, .f32⟩
  | _, _ => ⟨S4x256x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_cst : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_cst_0 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_cst_1 : Ref sig .tc := ⟨.hbm, 27, rfl⟩
abbrev main_v20 : Ref sig .tc := ⟨.hbm, 28, rfl⟩
abbrev main_v21 : Ref sig .tc := ⟨.hbm, 29, rfl⟩
abbrev main_cst_2 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩

abbrev nD : Nat := 1
abbrev τ : Topo := Topo.v7x

variable {F : FTy → Type} [FloatOps F]

class Facts₀ : Prop where
  slices_S512x1024_S512x512_0_0 : S512x1024.Slices ![0, 0] S512x512
  slices_S512x1024_S512x512_0_512 : S512x1024.Slices ![0, 512] S512x512
  bcast_S4x256x512_S4x256x1x512_0_1_3 : S4x256x512.BroadcastsInDim S4x256x1x512 (![0, 1, 3] : Fin 3 → Fin S4x256x1x512.rank)
  bcast_S4x64x512_S4x1x64x512_0_2_3 : S4x64x512.BroadcastsInDim S4x1x64x512 (![0, 2, 3] : Fin 3 → Fin S4x1x64x512.rank)
  bcast_S4x256x1x512_S4x256x64x512_0_1_2_3 : S4x256x1x512.BroadcastsInDim S4x256x64x512 (![0, 1, 2, 3] : Fin 4 → Fin S4x256x64x512.rank)
  bcast_S4x1x64x512_S4x256x64x512_0_1_2_3 : S4x1x64x512.BroadcastsInDim S4x256x64x512 (![0, 1, 2, 3] : Fin 4 → Fin S4x256x64x512.rank)
  bcast_S512_S1x1x1x512_3 : S512.BroadcastsInDim S1x1x1x512 (![3] : Fin 1 → Fin S1x1x1x512.rank)
  bcast_S1x1x1x512_S4x256x64x512_0_1_2_3 : S1x1x1x512.BroadcastsInDim S4x256x64x512 (![0, 1, 2, 3] : Fin 4 → Fin S4x256x64x512.rank)
  bcast_S_S4x256x64x512 : S_.BroadcastsInDim S4x256x64x512 (![] : Fin 0 → Fin S4x256x64x512.rank)
  dot_S4x256x512_S512x512_S4x256x512_2_1_01_0_n_n_wf : DotDims.WF S4x256x512 S512x512 S4x256x512 [2] [1] [0, 1] [0] [] []
  dot_S4x64x512_S512x512_S4x64x512_2_1_01_0_n_n_wf : DotDims.WF S4x64x512 S512x512 S4x64x512 [2] [1] [0, 1] [0] [] []
  dot_S4x256x64x512_S1024x512_S4x256x64x1024_3_1_012_0_n_n_wf : DotDims.WF S4x256x64x512 S1024x512 S4x256x64x1024 [3] [1] [0, 1, 2] [0] [] []

variable [Facts₀]

def dot_S4x256x512_S512x512_S4x256x512_2_1_01_0_n_n : DotDims S4x256x512 S512x512 S4x256x512 where
  lhsContracting := [2]
  rhsContracting := [1]
  lhsNonContracting := [0, 1]
  rhsNonContracting := [0]
  lhsBatch := []
  rhsBatch := []
  wf := dot_S4x256x512_S512x512_S4x256x512_2_1_01_0_n_n_wf
def dot_S4x64x512_S512x512_S4x64x512_2_1_01_0_n_n : DotDims S4x64x512 S512x512 S4x64x512 where
  lhsContracting := [2]
  rhsContracting := [1]
  lhsNonContracting := [0, 1]
  rhsNonContracting := [0]
  lhsBatch := []
  rhsBatch := []
  wf := dot_S4x64x512_S512x512_S4x64x512_2_1_01_0_n_n_wf
def dot_S4x256x64x512_S1024x512_S4x256x64x1024_3_1_012_0_n_n : DotDims S4x256x64x512 S1024x512 S4x256x64x1024 where
  lhsContracting := [3]
  rhsContracting := [1]
  lhsNonContracting := [0, 1, 2]
  rhsNonContracting := [0]
  lhsBatch := []
  rhsBatch := []
  wf := dot_S4x256x64x512_S1024x512_S4x256x64x1024_3_1_012_0_n_n_wf

class Facts : Prop extends Facts₀ where

variable [Facts]
-- ==== Proof.BodyProducts.lean ====
/-
  The three matrix products of the kernel body, each read at one entry.

  At the exact reading a product accumulated into a zero array is, at row p and column q, the sum over the contracted
  index of the left operand's row p times the right operand's column q: no rounding to sixteen bits, no order of
  accumulation is left. The contracted index is a one-axis index; it is carried to its one coordinate.
-/
import proofs.«159081_j59244778881348_1_alg».proof.Proof.Gen.KernelIdeal
import Idealize.ShloMosaic.Lib.ValueIdx
import Idealize.ShloMosaic.PureOps.Ideal.Laws

noncomputable section

namespace Cert.Joint.Products

open Cert.KernelIdeal Idealize.ShloMosaic Idealize.ShloMosaic.ValueIdx

/-! ## The encoder frames' projection: [16, 512] · [512, 512] -/

theorem enc_l0 (j : S16x512.Idx) (q : dot_S16x512_S512x512_S16x512_1_0_0_1_n_n.contr.Idx) :
    (dot_S16x512_S512x512_S16x512_1_0_0_1_n_n.lhsIdx j q 0).val = (j 0).val := by
  unfold DotDims.lhsIdx
  rw [dif_neg (show ¬(0 : Fin S16x512.rank) ∈ dot_S16x512_S512x512_S16x512_1_0_0_1_n_n.lhsBatch by decide),
    dif_pos (show (0 : Fin S16x512.rank) ∈ dot_S16x512_S512x512_S16x512_1_0_0_1_n_n.lhsNonContracting by decide)]
  rfl
theorem enc_l1 (j : S16x512.Idx) (q : dot_S16x512_S512x512_S16x512_1_0_0_1_n_n.contr.Idx) :
    (dot_S16x512_S512x512_S16x512_1_0_0_1_n_n.lhsIdx j q 1).val = (q ⟨0, by decide⟩).val :=
  dot_S16x512_S512x512_S16x512_1_0_0_1_n_n.lhsIdx_val_of_single rfl j q
theorem enc_r0 (j : S16x512.Idx) (q : dot_S16x512_S512x512_S16x512_1_0_0_1_n_n.contr.Idx) :
    (dot_S16x512_S512x512_S16x512_1_0_0_1_n_n.rhsIdx j q 0).val = (q ⟨0, by decide⟩).val :=
  dot_S16x512_S512x512_S16x512_1_0_0_1_n_n.rhsIdx_val_of_single rfl j q
theorem enc_r1 (j : S16x512.Idx) (q : dot_S16x512_S512x512_S16x512_1_0_0_1_n_n.contr.Idx) :
    (dot_S16x512_S512x512_S16x512_1_0_0_1_n_n.rhsIdx j q 1).val = (j 1).val := by
  unfold DotDims.rhsIdx
  rw [dif_neg (show ¬(1 : Fin S512x512.rank) ∈ dot_S16x512_S512x512_S16x512_1_0_0_1_n_n.rhsBatch by decide),
    dif_pos (show (1 : Fin S512x512.rank) ∈ dot_S16x512_S512x512_S16x512_1_0_0_1_n_n.rhsNonContracting by decide)]
  rfl

/-- Entry (t, k) of the product into zero is Σ_d l[t, d] · r[d, k]. -/
theorem enc_product (l : FVec Ideal S16x512 .bf16) (r : FVec Ideal S512x512 .bf16) (t : Fin 16) (k : Fin 512) :
    matmul dot_S16x512_S512x512_S16x512_1_0_0_1_n_n none l r (constant (F := Ideal) S16x512 .f32 0x00000000#32) (ix2 t k)
      = ∑ d : Fin 512, l (ix2 t d) * r (ix2 d k) := by
  simp only [matmul]
  rw [Ideal.matmul_constant_zero_apply,
    ← Equiv.sum_comp (contrEquiv1 dot_S16x512_S512x512_S16x512_1_0_0_1_n_n 512 rfl rfl).symm]
  refine Finset.sum_congr rfl fun d _ => ?_
  have hd := contrEquiv1_symm_val dot_S16x512_S512x512_S16x512_1_0_0_1_n_n 512 rfl rfl d
  have el : dot_S16x512_S512x512_S16x512_1_0_0_1_n_n.lhsIdx (ix2 t k)
      ((contrEquiv1 dot_S16x512_S512x512_S16x512_1_0_0_1_n_n 512 rfl rfl).symm d) = ix2 t d := funext fun a => Fin.ext (by
    match a with
    | ⟨0, _⟩ => exact enc_l0 _ _
    | ⟨1, _⟩ => exact (enc_l1 _ _).trans hd)
  have er : dot_S16x512_S512x512_S16x512_1_0_0_1_n_n.rhsIdx (ix2 t k)
      ((contrEquiv1 dot_S16x512_S512x512_S16x512_1_0_0_1_n_n 512 rfl rfl).symm d) = ix2 d k := funext fun a => Fin.ext (by
    match a with
    | ⟨0, _⟩ => exact (enc_r0 _ _).trans hd
    | ⟨1, _⟩ => exact enc_r1 _ _)
  rw [el, er]

/-! ## The decoder steps' projection: [64, 512] · [512, 512] -/

theorem dec_l0 (j : S64x512.Idx) (q : dot_S64x512_S512x512_S64x512_1_0_0_1_n_n.contr.Idx) :
    (dot_S64x512_S512x512_S64x512_1_0_0_1_n_n.lhsIdx j q 0).val = (j 0).val := by
  unfold DotDims.lhsIdx
  rw [dif_neg (show ¬(0 : Fin S64x512.rank) ∈ dot_S64x512_S512x512_S64x512_1_0_0_1_n_n.lhsBatch by decide),
    dif_pos (show (0 : Fin S64x512.rank) ∈ dot_S64x512_S512x512_S64x512_1_0_0_1_n_n.lhsNonContracting by decide)]
  rfl
theorem dec_l1 (j : S64x512.Idx) (q : dot_S64x512_S512x512_S64x512_1_0_0_1_n_n.contr.Idx) :
    (dot_S64x512_S512x512_S64x512_1_0_0_1_n_n.lhsIdx j q 1).val = (q ⟨0, by decide⟩).val :=
  dot_S64x512_S512x512_S64x512_1_0_0_1_n_n.lhsIdx_val_of_single rfl j q
theorem dec_r0 (j : S64x512.Idx) (q : dot_S64x512_S512x512_S64x512_1_0_0_1_n_n.contr.Idx) :
    (dot_S64x512_S512x512_S64x512_1_0_0_1_n_n.rhsIdx j q 0).val = (q ⟨0, by decide⟩).val :=
  dot_S64x512_S512x512_S64x512_1_0_0_1_n_n.rhsIdx_val_of_single rfl j q
theorem dec_r1 (j : S64x512.Idx) (q : dot_S64x512_S512x512_S64x512_1_0_0_1_n_n.contr.Idx) :
    (dot_S64x512_S512x512_S64x512_1_0_0_1_n_n.rhsIdx j q 1).val = (j 1).val := by
  unfold DotDims.rhsIdx
  rw [dif_neg (show ¬(1 : Fin S512x512.rank) ∈ dot_S64x512_S512x512_S64x512_1_0_0_1_n_n.rhsBatch by decide),
    dif_pos (show (1 : Fin S512x512.rank) ∈ dot_S64x512_S512x512_S64x512_1_0_0_1_n_n.rhsNonContracting by decide)]
  rfl

/-- Entry (u, k) of the product into zero is Σ_d l[u, d] · r[d, k]. -/
theorem dec_product (l : FVec Ideal S64x512 .bf16) (r : FVec Ideal S512x512 .bf16) (u : Fin 64) (k : Fin 512) :
    matmul dot_S64x512_S512x512_S64x512_1_0_0_1_n_n none l r (constant (F := Ideal) S64x512 .f32 0x00000000#32) (ix2 u k)
      = ∑ d : Fin 512, l (ix2 u d) * r (ix2 d k) := by
  simp only [matmul]
  rw [Ideal.matmul_constant_zero_apply,
    ← Equiv.sum_comp (contrEquiv1 dot_S64x512_S512x512_S64x512_1_0_0_1_n_n 512 rfl rfl).symm]
  refine Finset.sum_congr rfl fun d _ => ?_
  have hd := contrEquiv1_symm_val dot_S64x512_S512x512_S64x512_1_0_0_1_n_n 512 rfl rfl d
  have el : dot_S64x512_S512x512_S64x512_1_0_0_1_n_n.lhsIdx (ix2 u k)
      ((contrEquiv1 dot_S64x512_S512x512_S64x512_1_0_0_1_n_n 512 rfl rfl).symm d) = ix2 u d := funext fun a => Fin.ext (by
    match a with
    | ⟨0, _⟩ => exact dec_l0 _ _
    | ⟨1, _⟩ => exact (dec_l1 _ _).trans hd)
  have er : dot_S64x512_S512x512_S64x512_1_0_0_1_n_n.rhsIdx (ix2 u k)
      ((contrEquiv1 dot_S64x512_S512x512_S64x512_1_0_0_1_n_n 512 rfl rfl).symm d) = ix2 d k := funext fun a => Fin.ext (by
    match a with
    | ⟨0, _⟩ => exact (dec_r0 _ _).trans hd
    | ⟨1, _⟩ => exact dec_r1 _ _)
  rw [el, er]

/-! ## The second projection: [1024, 512] · [512, 1024] -/

theorem out_l0 (j : S1024x1024.Idx) (q : dot_S1024x512_S512x1024_S1024x1024_1_0_0_1_n_n.contr.Idx) :
    (dot_S1024x512_S512x1024_S1024x1024_1_0_0_1_n_n.lhsIdx j q 0).val = (j 0).val := by
  unfold DotDims.lhsIdx
  rw [dif_neg (show ¬(0 : Fin S1024x512.rank) ∈ dot_S1024x512_S512x1024_S1024x1024_1_0_0_1_n_n.lhsBatch by decide),
    dif_pos (show (0 : Fin S1024x512.rank) ∈ dot_S1024x512_S512x1024_S1024x1024_1_0_0_1_n_n.lhsNonContracting by decide)]
  rfl
theorem out_l1 (j : S1024x1024.Idx) (q : dot_S1024x512_S512x1024_S1024x1024_1_0_0_1_n_n.contr.Idx) :
    (dot_S1024x512_S512x1024_S1024x1024_1_0_0_1_n_n.lhsIdx j q 1).val = (q ⟨0, by decide⟩).val :=
  dot_S1024x512_S512x1024_S1024x1024_1_0_0_1_n_n.lhsIdx_val_of_single rfl j q
theorem out_r0 (j : S1024x1024.Idx) (q : dot_S1024x512_S512x1024_S1024x1024_1_0_0_1_n_n.contr.Idx) :
    (dot_S1024x512_S512x1024_S1024x1024_1_0_0_1_n_n.rhsIdx j q 0).val = (q ⟨0, by decide⟩).val :=
  dot_S1024x512_S512x1024_S1024x1024_1_0_0_1_n_n.rhsIdx_val_of_single rfl j q
theorem out_r1 (j : S1024x1024.Idx) (q : dot_S1024x512_S512x1024_S1024x1024_1_0_0_1_n_n.contr.Idx) :
    (dot_S1024x512_S512x1024_S1024x1024_1_0_0_1_n_n.rhsIdx j q 1).val = (j 1).val := by
  unfold DotDims.rhsIdx
  rw [dif_neg (show ¬(1 : Fin S512x1024.rank) ∈ dot_S1024x512_S512x1024_S1024x1024_1_0_0_1_n_n.rhsBatch by decide),
    dif_pos (show (1 : Fin S512x1024.rank) ∈ dot_S1024x512_S512x1024_S1024x1024_1_0_0_1_n_n.rhsNonContracting by decide)]
  rfl

/-- Entry (r, v) of the product into zero is Σ_k l[r, k] · w[k, v]. -/
theorem out_product (l : FVec Ideal S1024x512 .bf16) (w : FVec Ideal S512x1024 .bf16) (r : Fin 1024) (v : Fin 1024) :
    matmul dot_S1024x512_S512x1024_S1024x1024_1_0_0_1_n_n none l w (constant (F := Ideal) S1024x1024 .f32 0x00000000#32) (ix2 r v)
      = ∑ k : Fin 512, l (ix2 r k) * w (ix2 k v) := by
  simp only [matmul]
  rw [Ideal.matmul_constant_zero_apply,
    ← Equiv.sum_comp (contrEquiv1 dot_S1024x512_S512x1024_S1024x1024_1_0_0_1_n_n 512 rfl rfl).symm]
  refine Finset.sum_congr rfl fun k _ => ?_
  have hk := contrEquiv1_symm_val dot_S1024x512_S512x1024_S1024x1024_1_0_0_1_n_n 512 rfl rfl k
  have el : dot_S1024x512_S512x1024_S1024x1024_1_0_0_1_n_n.lhsIdx (ix2 r v)
      ((contrEquiv1 dot_S1024x512_S512x1024_S1024x1024_1_0_0_1_n_n 512 rfl rfl).symm k) = ix2 r k := funext fun a => Fin.ext (by
    match a with
    | ⟨0, _⟩ => exact out_l0 _ _
    | ⟨1, _⟩ => exact (out_l1 _ _).trans hk)
  have er : dot_S1024x512_S512x1024_S1024x1024_1_0_0_1_n_n.rhsIdx (ix2 r v)
      ((contrEquiv1 dot_S1024x512_S512x1024_S1024x1024_1_0_0_1_n_n 512 rfl rfl).symm k) = ix2 k v := funext fun a => Fin.ext (by
    match a with
    | ⟨0, _⟩ => exact (out_r0 _ _).trans hk
    | ⟨1, _⟩ => exact out_r1 _ _)
  rw [el, er]

end Cert.Joint.Products

end
-- ==== Proof.LibRank3Layout.lean ====
/-
  Rank-3 arrays re-laid, read at an index written by coordinates. General lemmas, for any extents.

  • a middle unit axis added: an [a, c] array viewed [a, 1, c] reads (i, 0, k) at (i, k);
  • the two leading axes merged or split: an [a, b, c] array viewed [n, c] with n = a·b reads row i·b + j at (i, j, ·),
    and an [n, c] array viewed [a, b, c] reads (i, j, ·) at row i·b + j — the row-major position is the same;
  • one axis repeated: an [a, 1, c] array repeated to [a, b, c] reads (i, 0, k) at every (i, j, k); a [1, b, c] array
    repeated to [a, b, c] reads (0, j, k); a [1, 1, c] array repeated to [a, b, c] reads (0, 0, k).
  Each is the library's read-at-an-index lemma of the operation with both indices written out and the coordinates'
  arithmetic discharged.
-/
import Idealize.ShloMosaic.Lib.Pipeline.Value
import Idealize.ShloMosaic.Lib.ValueIdx

namespace Cert.Lib.Rank3

open Idealize.ShloMosaic Idealize.ShloMosaic.ValueIdx

variable {α : Type}

/-- An `[a, c]` array cast to `[a, 1, c]` reads, at `(i, u, k)`, the operand at `(i, k)`. -/
theorem shapeCast_ac_a1c_apply {a c : ℕ} (x : (⟨2, ![a, c]⟩ : Shape).Idx → α)
    (h : (⟨2, ![a, c]⟩ : Shape).ShapeCasts ⟨3, ![a, 1, c]⟩) (i : Fin a) (u : Fin 1) (k : Fin c) :
    shapeCast ⟨3, ![a, 1, c]⟩ x h (ix3 i u k) = x (ix2 i k) :=
  shapeCast_apply x h _ _ (by
    have hu : u.val = 0 := by omega
    rw [Shape.rowMajor_val_two, Shape.rowMajor_val_three]
    show i.val * c + k.val = (i.val * 1 + u.val) * c + k.val
    rw [hu, Nat.mul_one, Nat.add_zero])

/-- An `[a, b, c]` array cast to `[n, c]` reads, at row `r = i·b + j` and column `k`, the operand at `(i, j, k)`. -/
theorem shapeCast_abc_nc_apply {a b c n : ℕ} (x : (⟨3, ![a, b, c]⟩ : Shape).Idx → α)
    (h : (⟨3, ![a, b, c]⟩ : Shape).ShapeCasts ⟨2, ![n, c]⟩) (i : Fin a) (j : Fin b) (k : Fin c) (r : Fin n)
    (hr : r.val = i.val * b + j.val) :
    shapeCast ⟨2, ![n, c]⟩ x h (ix2 r k) = x (ix3 i j k) :=
  shapeCast_apply x h _ _ (by
    rw [Shape.rowMajor_val_three, Shape.rowMajor_val_two]
    show (i.val * b + j.val) * c + k.val = r.val * c + k.val
    rw [hr])

/-- An `[n, c]` array cast to `[a, b, c]` reads, at `(i, j, k)`, the operand at row `r = i·b + j` and column `k`. -/
theorem shapeCast_nc_abc_apply {a b c n : ℕ} (x : (⟨2, ![n, c]⟩ : Shape).Idx → α)
    (h : (⟨2, ![n, c]⟩ : Shape).ShapeCasts ⟨3, ![a, b, c]⟩) (i : Fin a) (j : Fin b) (k : Fin c) (r : Fin n)
    (hr : r.val = i.val * b + j.val) :
    shapeCast ⟨3, ![a, b, c]⟩ x h (ix3 i j k) = x (ix2 r k) :=
  shapeCast_apply x h _ _ (by
    rw [Shape.rowMajor_val_two, Shape.rowMajor_val_three]
    show r.val * c + k.val = (i.val * b + j.val) * c + k.val
    rw [hr])

/-- An `[a, 1, c]` array broadcast to `[a, b, c]` reads, at `(i, j, k)`, the operand at `(i, 0, k)`. -/
theorem broadcastTo_a1c_abc_apply {a b c : ℕ} (x : (⟨3, ![a, 1, c]⟩ : Shape).Idx → α)
    (h : (⟨3, ![a, 1, c]⟩ : Shape).Broadcasts ⟨3, ![a, b, c]⟩) (i : Fin a) (j : Fin b) (k : Fin c) :
    broadcastTo ⟨3, ![a, b, c]⟩ x h (ix3 i j k) = x (ix3 i (0 : Fin 1) k) := by
  refine broadcastTo_apply x h (ix3 i j k) (ix3 i (0 : Fin 1) k) fun ax => ?_
  match ax with
  | ⟨0, _⟩ =>
    show i.val = if a = 1 then 0 else i.val
    split
    · have := i.isLt; omega
    · rfl
  | ⟨1, _⟩ => rfl
  | ⟨2, _⟩ =>
    show k.val = if c = 1 then 0 else k.val
    split
    · have := k.isLt; omega
    · rfl

/-- A `[1, b, c]` array broadcast to `[a, b, c]` reads, at `(i, j, k)`, the operand at `(0, j, k)`. -/
theorem broadcastTo_1bc_abc_apply {a b c : ℕ} (x : (⟨3, ![1, b, c]⟩ : Shape).Idx → α)
    (h : (⟨3, ![1, b, c]⟩ : Shape).Broadcasts ⟨3, ![a, b, c]⟩) (i : Fin a) (j : Fin b) (k : Fin c) :
    broadcastTo ⟨3, ![a, b, c]⟩ x h (ix3 i j k) = x (ix3 (0 : Fin 1) j k) := by
  refine broadcastTo_apply x h (ix3 i j k) (ix3 (0 : Fin 1) j k) fun ax => ?_
  match ax with
  | ⟨0, _⟩ => rfl
  | ⟨1, _⟩ =>
    show j.val = if b = 1 then 0 else j.val
    split
    · have := j.isLt; omega
    · rfl
  | ⟨2, _⟩ =>
    show k.val = if c = 1 then 0 else k.val
    split
    · have := k.isLt; omega
    · rfl

/-- A `[1, 1, c]` array broadcast to `[a, b, c]` reads, at `(i, j, k)`, the operand at `(0, 0, k)`. -/
theorem broadcastTo_11c_abc_apply {a b c : ℕ} (x : (⟨3, ![1, 1, c]⟩ : Shape).Idx → α)
    (h : (⟨3, ![1, 1, c]⟩ : Shape).Broadcasts ⟨3, ![a, b, c]⟩) (i : Fin a) (j : Fin b) (k : Fin c) :
    broadcastTo ⟨3, ![a, b, c]⟩ x h (ix3 i j k) = x (ix3 (0 : Fin 1) (0 : Fin 1) k) := by
  refine broadcastTo_apply x h (ix3 i j k) (ix3 (0 : Fin 1) (0 : Fin 1) k) fun ax => ?_
  match ax with
  | ⟨0, _⟩ => rfl
  | ⟨1, _⟩ => rfl
  | ⟨2, _⟩ =>
    show k.val = if c = 1 then 0 else k.val
    split
    · have := k.isLt; omega
    · rfl

end Cert.Lib.Rank3
-- ==== Proof.JointSpec.lean ====
/-
  The joint network of a transducer as ONE function of its five argument arrays, over the extended reals.

  For a batch entry b, an encoder frame t, a decoder step u and a hidden unit k the hidden pre-activation is
      hid(b,t,u,k) = (Σ_d enc[b,t,d] · w1[k,d]  +  Σ_d dec[b,u,d] · w1[k,512+d])  +  b1[k],
  the two halves of w1's rows being the encoder's and the decoder's projection. The activation is the tanh form of
  GELU,  g(h) = h · (1/2 · (1 + tanh(c · (h + κ · h·h·h)))),  its four constants the f32 words the programs print,
  each read at its exact binary value and never evaluated here. The result is the second projection
      out[b,t,u,v] = Σ_k g(hid(b,t,u,k)) · w2[v,k].
  Nothing below needs a finite input: the only law used between two spellings of g is that multiplication of
  extended reals is commutative and associative.
-/
import Idealize.ShloMosaic.PureOps.Ideal
import Idealize.ShloMosaic.Lib.ValueIdx

noncomputable section

namespace Cert.Joint

open Idealize.ShloMosaic Idealize.ShloMosaic.ValueIdx

/-- Column d of w1's encoder half. -/
abbrev encCol (d : Fin 512) : Fin 1024 := ⟨d.val, by have := d.isLt; omega⟩
/-- Column d of w1's decoder half: the columns 512 … 1023. -/
abbrev decCol (d : Fin 512) : Fin 1024 := ⟨512 + d.val, by have := d.isLt; omega⟩

/-- The hidden pre-activation at (b, t, u, k): the encoder frame's projection plus the decoder step's, plus the bias. -/
def hidden (enc : (⟨3, ![4, 256, 512]⟩ : Shape).Idx → EReal) (dec : (⟨3, ![4, 64, 512]⟩ : Shape).Idx → EReal)
    (w1 : (⟨2, ![512, 1024]⟩ : Shape).Idx → EReal) (b1 : (⟨1, ![512]⟩ : Shape).Idx → EReal)
    (b : Fin 4) (t : Fin 256) (u : Fin 64) (k : Fin 512) : EReal :=
  ((∑ d : Fin 512, enc (ix3 b t d) * w1 (ix2 k (encCol d))) + (∑ d : Fin 512, dec (ix3 b u d) * w1 (ix2 k (decCol d))))
    + b1 (ix1 k)

/-- The tanh form of GELU, grouped as h · (1/2 · (1 + tanh …)). -/
def gelu (h : EReal) : EReal :=
  h * (Ideal.ofBits .f32 0x3F000000#32 * (Ideal.ofBits .f32 0x3F800000#32
    + Ideal.tanh (Ideal.ofBits .f32 0x3F4C422A#32 * (h + Ideal.ofBits .f32 0x3D372713#32 * ((h * h) * h)))))

/-- Grouped instead as (1/2 · h) · (1 + tanh …) it is the same extended real: a product of three factors rearranged. -/
theorem half_first (h : EReal) :
    (Ideal.ofBits .f32 0x3F000000#32 * h) * (Ideal.ofBits .f32 0x3F800000#32
      + Ideal.tanh (Ideal.ofBits .f32 0x3F4C422A#32 * (h + Ideal.ofBits .f32 0x3D372713#32 * ((h * h) * h)))) = gelu h := by
  unfold gelu
  rw [mul_comm (Ideal.ofBits .f32 0x3F000000#32) h, mul_assoc]

/-- The network's result at (b, t, u, v). -/
def logit (enc : (⟨3, ![4, 256, 512]⟩ : Shape).Idx → EReal) (dec : (⟨3, ![4, 64, 512]⟩ : Shape).Idx → EReal)
    (w1 : (⟨2, ![512, 1024]⟩ : Shape).Idx → EReal) (b1 : (⟨1, ![512]⟩ : Shape).Idx → EReal)
    (w2 : (⟨2, ![1024, 512]⟩ : Shape).Idx → EReal) (b : Fin 4) (t : Fin 256) (u : Fin 64) (v : Fin 1024) : EReal :=
  ∑ k : Fin 512, gelu (hidden enc dec w1 b1 b t u k) * w2 (ix2 v k)

/-- The whole result array. -/
def joint (enc : (⟨3, ![4, 256, 512]⟩ : Shape).Idx → EReal) (dec : (⟨3, ![4, 64, 512]⟩ : Shape).Idx → EReal)
    (w1 : (⟨2, ![512, 1024]⟩ : Shape).Idx → EReal) (b1 : (⟨1, ![512]⟩ : Shape).Idx → EReal)
    (w2 : (⟨2, ![1024, 512]⟩ : Shape).Idx → EReal) : (⟨4, ![4, 256, 64, 1024]⟩ : Shape).Idx → EReal :=
  fun i => logit enc dec w1 b1 w2 (i 0) (i 1) (i 2) (i 3)

end Cert.Joint

end
-- ==== Proof.BodyValue.lean ====
/-
  What one grid point's body stores, read at one entry.

  The body holds a [16, 512] tile of encoder frames, the batch entry's [64, 512] decoder steps, the two transposed halves
  of w1, the bias as a row and the transposed w2. It forms the hidden pre-activation of the tile,
      hid(t, u, k) = (Σ_d x0[0,t,d] · x2[d,k]  +  Σ_d x1[0,u,d] · x3[d,k])  +  x4[0,k],
  by two products whose results are repeated along the other axis, activates it with the tanh form of GELU grouped as
  (1/2 · h) · (1 + tanh …), views the [16, 64, 512] result as 1024 rows, multiplies by x5 and views the 1024 rows back as
  [1, 16, 64, ·]: row t·64 + u is the pair (t, u) in both views. The changes of float format are the identity at the exact
  reading. So entry (0, t, u, v) of the stored value is Σ_k g(hid(t, u, k)) · x5[k, v].
-/
import proofs.«159081_j59244778881348_1_alg».proof.Proof.Gen.KernelIdeal.Skeleton
import proofs.«159081_j59244778881348_1_alg».proof.Proof.BodyProducts
import proofs.«159081_j59244778881348_1_alg».proof.Proof.LibRank3Layout
import proofs.«159081_j59244778881348_1_alg».proof.Proof.JointSpec
import Idealize.ShloMosaic.Lib.ValueLayout

noncomputable section

namespace Cert.Joint.Body

open Cert.KernelIdeal Cert.KernelIdeal.Gen Idealize.ShloMosaic Idealize.ShloMosaic.ValueIdx
open Cert.Joint Cert.Joint.Products Cert.Lib.Rank3

/-- The hidden pre-activation of one tile, from the blocks the body loads. -/
def blockHidden (x0 : Vec Ideal S1x16x512 .f32) (x1 : Vec Ideal S1x64x512 .f32) (x2 : Vec Ideal S512x512 .f32)
    (x3 : Vec Ideal S512x512 .f32) (x4 : Vec Ideal S1x512 .f32) (t : Fin 16) (u : Fin 64) (k : Fin 512) : EReal :=
  ((∑ d : Fin 512, x0 (ix3 (0 : Fin 1) t d) * x2 (ix2 d k)) + (∑ d : Fin 512, x1 (ix3 (0 : Fin 1) u d) * x3 (ix2 d k)))
    + x4 (ix2 (0 : Fin 1) k)

/-- The body's hidden array at (t, u, k). -/
theorem hidden_at (x0 : Vec Ideal S1x16x512 .f32) (x1 : Vec Ideal S1x64x512 .f32) (x2 : Vec Ideal S512x512 .f32)
    (x3 : Vec Ideal S512x512 .f32) (x4 : Vec Ideal S1x512 .f32) (t : Fin 16) (u : Fin 64) (k : Fin 512) :
    k0_pay3 (F := Ideal) x0 x1 x2 x3 x4 (ix3 t u k) = blockHidden x0 x1 x2 x3 x4 t u k := by
  unfold k0_pay3 blockHidden
  refine (addf_apply _ _ _).trans (congrArg₂ (· + ·) ((addf_apply _ _ _).trans (congrArg₂ (· + ·) ?_ ?_)) ?_)
  · refine (broadcastTo_a1c_abc_apply _ _ t u k).trans ?_
    refine (shapeCast_ac_a1c_apply _ _ t (0 : Fin 1) k).trans ?_
    refine (enc_product _ _ t k).trans ?_
    refine Finset.sum_congr rfl fun d _ => ?_
    refine congrArg₂ (· * ·) ?_ ?_
    · exact shapeCast_1ab_ab_apply x0 _ t d
    · exact congrFun (shapeCast_self x2 _) (ix2 d k)
  · refine (broadcastTo_1bc_abc_apply _ _ t u k).trans ?_
    refine (shapeCast_ab_1ab_apply _ _ (0 : Fin 1) u k).trans ?_
    refine (dec_product _ _ u k).trans ?_
    refine Finset.sum_congr rfl fun d _ => ?_
    refine congrArg₂ (· * ·) ?_ ?_
    · exact shapeCast_1ab_ab_apply x1 _ u d
    · exact congrFun (shapeCast_self x3 _) (ix2 d k)
  · refine (broadcastTo_11c_abc_apply _ _ t u k).trans ?_
    refine (shapeCast_ab_1ab_apply _ _ (0 : Fin 1) (0 : Fin 1) k).trans ?_
    exact congrFun (shapeCast_self x4 _) (ix2 (0 : Fin 1) k)

/-- The body's activated array at (t, u, k) is GELU of its hidden array there: (1/2 · h) · (1 + tanh …) regrouped. -/
theorem act_at (x0 : Vec Ideal S1x16x512 .f32) (x1 : Vec Ideal S1x64x512 .f32) (x2 : Vec Ideal S512x512 .f32)
    (x3 : Vec Ideal S512x512 .f32) (x4 : Vec Ideal S1x512 .f32) (t : Fin 16) (u : Fin 64) (k : Fin 512) :
    mulf (k0_pay4 (F := Ideal) x0 x1 x2 x3 x4) (addf (k0_pay6 (F := Ideal)) (k0_pay5 (F := Ideal) x0 x1 x2 x3 x4)) (ix3 t u k)
      = gelu (blockHidden x0 x1 x2 x3 x4 t u k) := by
  rw [← hidden_at]
  unfold k0_pay4 k0_pay5 k0_pay6
  exact half_first _

/-- THE STORED VALUE at (0, t, u, v): the activated tile's row (t, u) against column v of the last block. -/
theorem stored_at (x0 : Vec Ideal S1x16x512 .f32) (x1 : Vec Ideal S1x64x512 .f32) (x2 : Vec Ideal S512x512 .f32)
    (x3 : Vec Ideal S512x512 .f32) (x4 : Vec Ideal S1x512 .f32) (x5 : Vec Ideal S512x1024 .f32)
    (t : Fin 16) (u : Fin 64) (v : Fin 1024) :
    k0_pay1 (F := Ideal) (k0_pay2 x5) (k0_pay4 x0 x1 x2 x3 x4) (k0_pay5 x0 x1 x2 x3 x4) k0_pay6 (ix4 (0 : Fin 1) t u v)
      = ∑ k : Fin 512, gelu (blockHidden x0 x1 x2 x3 x4 t u k) * x5 (ix2 k v) := by
  have hr : t.val * 64 + u.val < 1024 := by have := t.isLt; have := u.isLt; omega
  unfold k0_pay1
  refine (shapeCast_abc_1abc_apply _ _ (0 : Fin 1) t u v).trans ?_
  refine (shapeCast_nc_abc_apply _ _ t u v ⟨t.val * 64 + u.val, hr⟩ rfl).trans ?_
  refine (out_product _ _ ⟨t.val * 64 + u.val, hr⟩ v).trans ?_
  refine Finset.sum_congr rfl fun k _ => ?_
  refine congrArg₂ (· * ·) ?_ ?_
  · refine (shapeCast_abc_nc_apply _ _ t u k ⟨t.val * 64 + u.val, hr⟩ rfl).trans ?_
    exact act_at x0 x1 x2 x3 x4 t u k
  · exact congrFun (shapeCast_self x5 _) (ix2 k v)

/-- Frame t of the tile that starts at frame 16·tb. -/
abbrev frame (tb : Fin 16) (t : Fin 16) : Fin 256 := ⟨16 * tb.val + t.val, by have := tb.isLt; have := t.isLt; omega⟩

/-- THE TILE IS A TILE OF THE JOINT NETWORK. If the blocks the body loads are: frames 16·tb … 16·tb + 15 of batch entry b of
    the encoder array, batch entry b of the decoder array, the transposed two halves of w1, the bias as a row, and the
    transposed w2 — each stated entry by entry —, then what the body stores at (0, t, u, v) is the network's result at
    (b, 16·tb + t, u, v). -/
theorem tile_logit (x0 : Vec Ideal S1x16x512 .f32) (x1 : Vec Ideal S1x64x512 .f32) (x2 : Vec Ideal S512x512 .f32)
    (x3 : Vec Ideal S512x512 .f32) (x4 : Vec Ideal S1x512 .f32) (x5 : Vec Ideal S512x1024 .f32)
    (enc : (⟨3, ![4, 256, 512]⟩ : Shape).Idx → EReal) (dec : (⟨3, ![4, 64, 512]⟩ : Shape).Idx → EReal)
    (w1 : (⟨2, ![512, 1024]⟩ : Shape).Idx → EReal) (b1 : (⟨1, ![512]⟩ : Shape).Idx → EReal)
    (w2 : (⟨2, ![1024, 512]⟩ : Shape).Idx → EReal) (b : Fin 4) (tb : Fin 16)
    (h0 : ∀ (t : Fin 16) (d : Fin 512), x0 (ix3 (0 : Fin 1) t d) = enc (ix3 b (frame tb t) d))
    (h1 : ∀ (u : Fin 64) (d : Fin 512), x1 (ix3 (0 : Fin 1) u d) = dec (ix3 b u d))
    (h2 : ∀ (d k : Fin 512), x2 (ix2 d k) = w1 (ix2 k (encCol d)))
    (h3 : ∀ (d k : Fin 512), x3 (ix2 d k) = w1 (ix2 k (decCol d)))
    (h4 : ∀ k : Fin 512, x4 (ix2 (0 : Fin 1) k) = b1 (ix1 k))
    (h5 : ∀ (k : Fin 512) (v : Fin 1024), x5 (ix2 k v) = w2 (ix2 v k))
    (t : Fin 16) (u : Fin 64) (v : Fin 1024) :
    k0_pay1 (F := Ideal) (k0_pay2 x5) (k0_pay4 x0 x1 x2 x3 x4) (k0_pay5 x0 x1 x2 x3 x4) k0_pay6 (ix4 (0 : Fin 1) t u v)
      = logit enc dec w1 b1 w2 b (frame tb t) u v := by
  rw [stored_at]
  unfold logit
  refine Finset.sum_congr rfl fun k _ => ?_
  rw [h5]
  refine congrArg (fun h => gelu h * w2 (ix2 v k)) ?_
  unfold blockHidden hidden
  simp only [h0, h1, h2, h3, h4]

end Cert.Joint.Body

end
-- ==== Proof.JointBlocks.lean ====
/-
  From the blocks the grid points write back to the whole result array.

  The grid is 4 × 16: point (b, s) works on batch entry b and encoder frames 16·s … 16·s + 15. Its windows are: that tile
  of the encoder array; batch entry b of the decoder array; and, whole at every point, four arrays the host lines before
  the launch wrote — the two halves of w1 transposed, the bias as a row, w2 transposed. Read at an entry, a transpose
  swaps the two coordinates and a slice shifts the column, so each host-written array names one entry of an argument. The
  point writes back the [1, 16, 64, 1024] block at block index (b, s, 0, 0); by the tile lemma that block is the joint
  network's function read through the block. The 64 blocks tile the [4, 256, 64, 1024] result: entry (b, r, u, v) lies in
  the block of point (b, r / 16). So the result array ends holding the network's function of the arguments.
-/
import proofs.«159081_j59244778881348_1_alg».proof.Proof.Gen.KernelIdeal.Value
import proofs.«159081_j59244778881348_1_alg».proof.Proof.BodyValue
import Idealize.ShloMosaic.Lib.StableHlo.Run
import Idealize.ShloMosaic.Lib.ValueLayout

noncomputable section

namespace Cert.Joint.Blocks

open Cert.KernelIdeal Cert.KernelIdeal.Gen Idealize.ShloMosaic Idealize.ShloMosaic.TcCoe Idealize.SL.Sem
open Idealize.ShloMosaic.ValueIdx
open Idealize.ShloMosaic.Pipeline (Dat)
open Cert.Joint Cert.Joint.Body

variable (m : (ℓ : Loc nD τ sig) → Buf (Elt Ideal) ℓ) (ρ : Dev nD → PrngReg)

/-! ## The arrays the host lines wrote before the launch, read at an entry -/

/-- The encoder half of w1, transposed: entry (d, k) is w1[k, d]. -/
theorem wencT_at (c : Dev nD) (d k : Fin 512) :
    (V m c main_v1 : S512x512.Idx → EReal) (ix2 d k) = m ((c : Thread nD τ).loc main_arg2) (ix2 k (encCol d)) := by
  have e : (V m c main_v1 : S512x512.Idx → EReal)
      = transpose S512x512 [1, 0] (extractStridedSlice S512x512 ![0, 0] (m ((c : Thread nD τ).loc main_arg2)) slices_S512x1024_S512x512_0_0)
          transposes_S512x512_S512x512_1_0 := by
    dsimp only [Gen.V, Gen.hostOps0]; after_results
  rw [e]
  refine (transpose_ix2_apply _ _ d k).trans ?_
  exact slice2_axis1_apply 0 _ _ k d (encCol d) (Nat.zero_add _).symm

/-- The decoder half of w1, transposed: entry (d, k) is w1[k, 512 + d]. -/
theorem wdecT_at (c : Dev nD) (d k : Fin 512) :
    (V m c main_v3 : S512x512.Idx → EReal) (ix2 d k) = m ((c : Thread nD τ).loc main_arg2) (ix2 k (decCol d)) := by
  have e : (V m c main_v3 : S512x512.Idx → EReal)
      = transpose S512x512 [1, 0] (extractStridedSlice S512x512 ![0, 512] (m ((c : Thread nD τ).loc main_arg2)) slices_S512x1024_S512x512_0_512)
          transposes_S512x512_S512x512_1_0 := by
    dsimp only [Gen.V, Gen.hostOps0]; after_results
  rw [e]
  refine (transpose_ix2_apply _ _ d k).trans ?_
  exact slice2_axis1_apply 512 _ _ k d (decCol d) rfl

/-- w2 transposed: entry (k, v) is w2[v, k]. -/
theorem w2T_at (c : Dev nD) (k : Fin 512) (v : Fin 1024) :
    (V m c main_v4 : S512x1024.Idx → EReal) (ix2 k v) = m ((c : Thread nD τ).loc main_arg4) (ix2 v k) := by
  have e : (V m c main_v4 : S512x1024.Idx → EReal)
      = transpose S512x1024 [1, 0] (m ((c : Thread nD τ).loc main_arg4)) transposes_S1024x512_S512x1024_1_0 := by
    dsimp only [Gen.V, Gen.hostOps0]; after_results
  rw [e]
  exact transpose_ix2_apply _ _ k v

/-- The bias as a row: entry (0, k) is b1[k]. -/
theorem biasRow_at (c : Dev nD) (k : Fin 512) :
    (V m c main_v5 : S1x512.Idx → EReal) (ix2 (0 : Fin 1) k) = m ((c : Thread nD τ).loc main_arg3) (ix1 k) := by
  have e : (V m c main_v5 : S1x512.Idx → EReal) = shapeCast S1x512 (m ((c : Thread nD τ).loc main_arg3)) shapeCasts_S512_S1x512 := by
    dsimp only [Gen.V, Gen.hostOps0]; after_results; rfl
  rw [e]
  exact shapeCast_a_1a_apply _ _ (0 : Fin 1) k

/-! ## The index maps, decided once over the 64 grid points -/

/-- The encoder window moves with the output on the batch and frame axes. -/
theorem idx_enc : ∀ t : Fin cfg0.N, win0_0.index t (0 : Fin 3) = win0_6.index t (0 : Fin 4)
    ∧ win0_0.index t (1 : Fin 3) = win0_6.index t (1 : Fin 4) ∧ win0_0.index t (2 : Fin 3) = 0 :=
  (by decide +kernel : ∀ t : Fin grid0.N, _)

/-- The decoder window moves with the output on the batch axis only. -/
theorem idx_dec : ∀ t : Fin cfg0.N, win0_1.index t (0 : Fin 3) = win0_6.index t (0 : Fin 4)
    ∧ win0_1.index t (1 : Fin 3) = 0 ∧ win0_1.index t (2 : Fin 3) = 0 :=
  (by decide +kernel : ∀ t : Fin grid0.N, _)

/-- The four host-written windows are whole at every point. -/
theorem idx_whole : ∀ t : Fin cfg0.N, win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0 :=
  (by decide +kernel : ∀ t : Fin grid0.N, _)

/-- The output's block index is (b, s, 0, 0) with b < 4 and s < 16. -/
theorem idx_out : ∀ t : Fin cfg0.N, win0_6.index t (0 : Fin 4) ≤ 3 ∧ win0_6.index t (1 : Fin 4) ≤ 15
    ∧ win0_6.index t (2 : Fin 4) = 0 ∧ win0_6.index t (3 : Fin 4) = 0 :=
  (by decide +kernel : ∀ t : Fin grid0.N, _)

/-- Every (b, s) is some point's. -/
theorem idx_onto : ∀ (q0 : Fin 4) (q1 : Fin 16), ∃ t : Fin cfg0.N, win0_6.index t = ![q0.val, q1.val, 0, 0] :=
  (by decide +kernel : ∀ (q0 : Fin 4) (q1 : Fin 16), ∃ t : Fin grid0.N, win0_6.index t = ![q0.val, q1.val, 0, 0])

/-! ## Each input window's block at a point, entry by entry -/

/-- The encoder tile of point (b, s): entry (0, t, d) is enc[b, 16·s + t, d]. -/
theorem enc_blk (c : Dev nD) (p : Fin cfg0.N) (b : Fin 4) (s : Fin 16) (hb : win0_6.index p (0 : Fin 4) = b.val)
    (hs : win0_6.index p (1 : Fin 4) = s.val) (t : Fin 16) (d : Fin 512) :
    (iblk m c 0 p : Vec Ideal S1x16x512 .f32) (ix3 (0 : Fin 1) t d) = m ((c : Thread nD τ).loc main_arg0) (ix3 b (frame s t) d) := by
  obtain ⟨e0, e1, e2⟩ := idx_enc p
  show V m c main_arg0 (((cfg0.win 0).blk p).view.emb (ix3 (0 : Fin 1) t d)) = _
  rw [V_main_arg0]
  refine congrArg (m ((c : Thread nD τ).loc main_arg0)) (funext fun a => Fin.ext ?_)
  match a with
  | ⟨0, _⟩ => show win0_0.index p (0 : Fin 3) * 1 + 1 * 0 = b.val; omega
  | ⟨1, _⟩ => show win0_0.index p (1 : Fin 3) * 16 + 1 * t.val = 16 * s.val + t.val; omega
  | ⟨2, _⟩ => show win0_0.index p (2 : Fin 3) * 512 + 1 * d.val = d.val; omega

/-- The decoder block of point (b, s): entry (0, u, d) is dec[b, u, d]. -/
theorem dec_blk (c : Dev nD) (p : Fin cfg0.N) (b : Fin 4) (hb : win0_6.index p (0 : Fin 4) = b.val) (u : Fin 64) (d : Fin 512) :
    (iblk m c 1 p : Vec Ideal S1x64x512 .f32) (ix3 (0 : Fin 1) u d) = m ((c : Thread nD τ).loc main_arg1) (ix3 b u d) := by
  obtain ⟨e0, e1, e2⟩ := idx_dec p
  show V m c main_arg1 (((cfg0.win 1).blk p).view.emb (ix3 (0 : Fin 1) u d)) = _
  rw [V_main_arg1]
  refine congrArg (m ((c : Thread nD τ).loc main_arg1)) (funext fun a => Fin.ext ?_)
  match a with
  | ⟨0, _⟩ => show win0_1.index p (0 : Fin 3) * 1 + 1 * 0 = b.val; omega
  | ⟨1, _⟩ => show win0_1.index p (1 : Fin 3) * 64 + 1 * u.val = u.val; omega
  | ⟨2, _⟩ => show win0_1.index p (2 : Fin 3) * 512 + 1 * d.val = d.val; omega

/-- The transposed encoder half of w1 at any point. -/
theorem wencT_blk (c : Dev nD) (p : Fin cfg0.N) (d k : Fin 512) :
    (iblk m c 2 p : Vec Ideal S512x512 .f32) (ix2 d k) = m ((c : Thread nD τ).loc main_arg2) (ix2 k (encCol d)) := by
  obtain ⟨e0, e1, -⟩ := idx_whole p
  have he : ((cfg0.win 2).blk p).view.emb (ix2 d k) = ix2 d k := funext fun a => Fin.ext (by
    match a with
    | ⟨0, _⟩ => show win0_2.index p (0 : Fin 2) * 512 + 1 * d.val = d.val; omega
    | ⟨1, _⟩ => show win0_2.index p (1 : Fin 2) * 512 + 1 * k.val = k.val; omega)
  show (V m c main_v1 : S512x512.Idx → EReal) (((cfg0.win 2).blk p).view.emb (ix2 d k)) = _
  rw [he]
  exact wencT_at m c d k

/-- The transposed decoder half of w1 at any point. -/
theorem wdecT_blk (c : Dev nD) (p : Fin cfg0.N) (d k : Fin 512) :
    (iblk m c 3 p : Vec Ideal S512x512 .f32) (ix2 d k) = m ((c : Thread nD τ).loc main_arg2) (ix2 k (decCol d)) := by
  obtain ⟨-, -, e0, e1, -⟩ := idx_whole p
  have he : ((cfg0.win 3).blk p).view.emb (ix2 d k) = ix2 d k := funext fun a => Fin.ext (by
    match a with
    | ⟨0, _⟩ => show win0_3.index p (0 : Fin 2) * 512 + 1 * d.val = d.val; omega
    | ⟨1, _⟩ => show win0_3.index p (1 : Fin 2) * 512 + 1 * k.val = k.val; omega)
  show (V m c main_v3 : S512x512.Idx → EReal) (((cfg0.win 3).blk p).view.emb (ix2 d k)) = _
  rw [he]
  exact wdecT_at m c d k

/-- The bias row at any point. -/
theorem bias_blk (c : Dev nD) (p : Fin cfg0.N) (k : Fin 512) :
    (iblk m c 4 p : Vec Ideal S1x512 .f32) (ix2 (0 : Fin 1) k) = m ((c : Thread nD τ).loc main_arg3) (ix1 k) := by
  obtain ⟨-, -, -, -, e0, e1, -⟩ := idx_whole p
  have he : ((cfg0.win 4).blk p).view.emb (ix2 (0 : Fin 1) k) = ix2 (0 : Fin 1) k := funext fun a => Fin.ext (by
    match a with
    | ⟨0, _⟩ => show win0_4.index p (0 : Fin 2) * 1 + 1 * 0 = 0; omega
    | ⟨1, _⟩ => show win0_4.index p (1 : Fin 2) * 512 + 1 * k.val = k.val; omega)
  show (V m c main_v5 : S1x512.Idx → EReal) (((cfg0.win 4).blk p).view.emb (ix2 (0 : Fin 1) k)) = _
  rw [he]
  exact biasRow_at m c k

/-- The transposed w2 at any point. -/
theorem w2T_blk (c : Dev nD) (p : Fin cfg0.N) (k : Fin 512) (v : Fin 1024) :
    (iblk m c 5 p : Vec Ideal S512x1024 .f32) (ix2 k v) = m ((c : Thread nD τ).loc main_arg4) (ix2 v k) := by
  obtain ⟨-, -, -, -, -, -, e0, e1⟩ := idx_whole p
  have he : ((cfg0.win 5).blk p).view.emb (ix2 k v) = ix2 k v := funext fun a => Fin.ext (by
    match a with
    | ⟨0, _⟩ => show win0_5.index p (0 : Fin 2) * 512 + 1 * k.val = k.val; omega
    | ⟨1, _⟩ => show win0_5.index p (1 : Fin 2) * 1024 + 1 * v.val = v.val; omega)
  show (V m c main_v4 : S512x1024.Idx → EReal) (((cfg0.win 5).blk p).view.emb (ix2 k v)) = _
  rw [he]
  exact w2T_at m c k v

/-! ## What a point writes back -/

theorem zeros2 : (![0, 0] : Fin 2 → Nat) = fun _ => 0 := funext fun a => by fin_cases a <;> rfl
theorem zeros3 : (![0, 0, 0] : Fin 3 → Nat) = fun _ => 0 := funext fun a => by fin_cases a <;> rfl
theorem zeros4 : (![0, 0, 0, 0] : Fin 4 → Nat) = fun _ => 0 := funext fun a => by fin_cases a <;> rfl

/-- WHAT POINT p WRITES BACK is its block of the joint network's function of the argument arrays. -/
theorem flushed_eq (c : Dev nD) (p : Fin cfg0.N) :
    (dats m 0 c).flushed 6 p = ((cfg0.win 6).blk p).view.read (Elt Ideal) (joint (m ((c : Thread nD τ).loc main_arg0)) (m ((c : Thread nD τ).loc main_arg1)) (m ((c : Thread nD τ).loc main_arg2)) (m ((c : Thread nD τ).loc main_arg3)) (m ((c : Thread nD τ).loc main_arg4))) := by
  rw [Cert.KernelIdeal.Value.flushed6]
  unfold out0_6
  rw [View.canon_unit_zero zeros4]
  simp only [View.ld_unit_zero (S := S1x16x512) zeros3, View.ld_unit_zero (S := S1x64x512) zeros3,
    View.ld_unit_zero (S := S512x512) zeros2, View.ld_unit_zero (S := S512x1024) zeros2, View.ld_unit_zero (S := S1x512) zeros2]
  obtain ⟨o0, o1, o2, o3⟩ := idx_out p
  funext y
  obtain ⟨y0, t, u, v, rfl⟩ : ∃ (y0 : Fin 1) (t : Fin 16) (u : Fin 64) (v : Fin 1024), y = ix4 y0 t u v :=
    ⟨y 0, y 1, y 2, y 3, eq_ix4 y⟩
  obtain rfl : y0 = 0 := Subsingleton.elim _ _
  have he : ((cfg0.win 6).blk p).view.emb (ix4 (0 : Fin 1) t u v)
      = ix4 (⟨win0_6.index p (0 : Fin 4), by omega⟩ : Fin 4) (frame ⟨win0_6.index p (1 : Fin 4), by omega⟩ t) u v :=
    funext fun a => Fin.ext (by
      match a with
      | ⟨0, _⟩ => show win0_6.index p (0 : Fin 4) * 1 + 1 * 0 = win0_6.index p (0 : Fin 4); omega
      | ⟨1, _⟩ => show win0_6.index p (1 : Fin 4) * 16 + 1 * t.val = 16 * win0_6.index p (1 : Fin 4) + t.val; omega
      | ⟨2, _⟩ => show win0_6.index p (2 : Fin 4) * 64 + 1 * u.val = u.val; omega
      | ⟨3, _⟩ => show win0_6.index p (3 : Fin 4) * 1024 + 1 * v.val = v.val; omega)
  show k0_pay1 (F := Ideal) (k0_pay2 (iblk m c 5 p)) (k0_pay4 (iblk m c 0 p) (iblk m c 1 p) (iblk m c 2 p) (iblk m c 3 p) (iblk m c 4 p))
      (k0_pay5 (iblk m c 0 p) (iblk m c 1 p) (iblk m c 2 p) (iblk m c 3 p) (iblk m c 4 p)) k0_pay6 (ix4 (0 : Fin 1) t u v)
    = (joint (m ((c : Thread nD τ).loc main_arg0)) (m ((c : Thread nD τ).loc main_arg1)) (m ((c : Thread nD τ).loc main_arg2)) (m ((c : Thread nD τ).loc main_arg3)) (m ((c : Thread nD τ).loc main_arg4))) (((cfg0.win 6).blk p).view.emb (ix4 (0 : Fin 1) t u v))
  rw [he]
  exact tile_logit (iblk m c 0 p) (iblk m c 1 p) (iblk m c 2 p) (iblk m c 3 p) (iblk m c 4 p) (iblk m c 5 p)
    (m ((c : Thread nD τ).loc main_arg0)) (m ((c : Thread nD τ).loc main_arg1)) (m ((c : Thread nD τ).loc main_arg2)) (m ((c : Thread nD τ).loc main_arg3)) (m ((c : Thread nD τ).loc main_arg4))
    ⟨win0_6.index p (0 : Fin 4), by omega⟩ ⟨win0_6.index p (1 : Fin 4), by omega⟩
    (enc_blk m c p _ _ rfl rfl) (dec_blk m c p _ rfl) (wencT_blk m c p) (wdecT_blk m c p) (bias_blk m c p) (w2T_blk m c p) t u v

/-! ## The blocks tile the result -/

/-- An entry is in point p's block iff each coordinate is in the block's range on its axis. -/
theorem mem_blk (p : Fin cfg0.N) (i : S4x256x64x1024.Idx) :
    i ∈ ((cfg0.win 6).blk p).view.set ↔ ∀ a : Fin 4, win0_6.index p a * S1x16x64x1024.size a ≤ (i a).val
      ∧ (i a).val < win0_6.index p a * S1x16x64x1024.size a + S1x16x64x1024.size a := by
  show i ∈ ((View.whole main_v6).slice (win0_6.rect p)).set ↔ _
  rw [View.set_slice_whole, Rect.mem_set_unit]
  exact Iff.rfl

/-- Entry (b, r, u, v) lies in the block of the point with block index (b, r / 16, 0, 0). -/
theorem cover (i : S4x256x64x1024.Idx) :
    ∃ p : Fin cfg0.N, (cfg0.win 6).flush p = true ∧ i ∈ ((cfg0.win 6).blk p).view.set := by
  have h0 : (i 0).val < 4 := (i 0).isLt
  have h1 : (i 1).val < 256 := (i 1).isLt
  have h2 : (i 2).val < 64 := (i 2).isLt
  have h3 : (i 3).val < 1024 := (i 3).isLt
  obtain ⟨p, hp⟩ := idx_onto ⟨(i 0).val, h0⟩ ⟨(i 1).val / 16, by omega⟩
  have q0 : win0_6.index p (0 : Fin 4) = (i 0).val := congrFun hp 0
  have q1 : win0_6.index p (1 : Fin 4) = (i 1).val / 16 := congrFun hp 1
  have q2 : win0_6.index p (2 : Fin 4) = 0 := congrFun hp 2
  have q3 : win0_6.index p (3 : Fin 4) = 0 := congrFun hp 3
  refine ⟨p, flush0_6 p, ?_⟩
  rw [mem_blk]
  intro a
  match a with
  | ⟨0, _⟩ => show win0_6.index p (0 : Fin 4) * 1 ≤ (i 0).val ∧ (i 0).val < win0_6.index p (0 : Fin 4) * 1 + 1; omega
  | ⟨1, _⟩ => show win0_6.index p (1 : Fin 4) * 16 ≤ (i 1).val ∧ (i 1).val < win0_6.index p (1 : Fin 4) * 16 + 16; omega
  | ⟨2, _⟩ => show win0_6.index p (2 : Fin 4) * 64 ≤ (i 2).val ∧ (i 2).val < win0_6.index p (2 : Fin 4) * 64 + 64; omega
  | ⟨3, _⟩ => show win0_6.index p (3 : Fin 4) * 1024 ≤ (i 3).val ∧ (i 3).val < win0_6.index p (3 : Fin 4) * 1024 + 1024; omega

/-! ## The result array, and the run -/

/-- THE RESULT ARRAY after the run is the joint network's function of the argument arrays. -/
theorem final (c : Dev nD) : (dats m 0 c).arrAt 6 cfg0.N = joint (m ((c : Thread nD τ).loc main_arg0)) (m ((c : Thread nD τ).loc main_arg1)) (m ((c : Thread nD τ).loc main_arg2)) (m ((c : Thread nD τ).loc main_arg3)) (m ((c : Thread nD τ).loc main_arg4)) :=
  (dats m 0 c).arrAt_eq_of_cover 6 (joint (m ((c : Thread nD τ).loc main_arg0)) (m ((c : Thread nD τ).loc main_arg1)) (m ((c : Thread nD τ).loc main_arg2)) (m ((c : Thread nD τ).loc main_arg3)) (m ((c : Thread nD τ).loc main_arg4))) (fun p _ => flushed_eq m c p) cover

/-- Every weakly fair execution of the idealized kernel terminates with the result array at the joint network's function
    of the arguments, the arguments unchanged. -/
theorem run : θ_run defs (onTc (τ := τ) (main (F := Ideal))) ⟨m, fun _ => 0, ρ⟩ fun r => ∀ c : Dev nD,
      r.2.mem ((c : Thread nD τ).loc main_v6) = joint (m ((c : Thread nD τ).loc main_arg0)) (m ((c : Thread nD τ).loc main_arg1)) (m ((c : Thread nD τ).loc main_arg2)) (m ((c : Thread nD τ).loc main_arg3)) (m ((c : Thread nD τ).loc main_arg4))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun r h c => ⟨(h c).1.trans (final m c), (h c).2⟩) (Cert.KernelIdeal.Value.run_blocks m ρ)

end Cert.Joint.Blocks

end
-- ==== Proof.RefJoint.lean ====
/-
  The reference computes the joint network's function.

  Its last stage is a contraction over the hidden unit k of the activated hidden array with w2's rows; the hidden array
  is the sum of three re-laid terms — the encoder frames' projection repeated along the decoder axis, the decoder steps'
  projection repeated along the encoder axis, the bias repeated everywhere — and the activation is the tanh form of GELU
  applied entry by entry, grouped as h · (1/2 · (1 + tanh …)). Read at an index, every re-laying names one entry of its
  operand, so the whole stage is the specification's sum term by term.
-/
import proofs.«159081_j59244778881348_1_alg».proof.Proof.Gen.ReferenceIdeal.Read
import proofs.«159081_j59244778881348_1_alg».proof.Proof.JointSpec

noncomputable section

namespace Cert.Joint.Reference

open Cert.ReferenceIdeal Cert.ReferenceIdeal.Read Idealize.ShloMosaic Idealize.ShloMosaic.ValueIdx Cert.Joint

/-! ## Where each re-laying reads its operand -/

/-- The encoder projection's left factor at hidden entry j and contraction index d is enc[b, t, d]. -/
theorem enc_at (j : S4x256x64x512.Idx) (d : Fin 512) :
    lidx_main_v2 (idx_main_v4 (idx_main_v6 j)) d = ix3 (j 0) (j 1) d :=
  funext fun a => Fin.ext (by match a with | ⟨0, _⟩ => rfl | ⟨1, _⟩ => rfl | ⟨2, _⟩ => rfl)

/-- Its right factor is w1[k, d]: the slice keeps columns 0 … 511. -/
theorem wenc_at (j : S4x256x64x512.Idx) (d : Fin 512) :
    idx_main_v0 (ridx_main_v2 (idx_main_v4 (idx_main_v6 j)) d) = ix2 (j 3) (encCol d) :=
  funext fun a => Fin.ext (by match a with | ⟨0, _⟩ => rfl | ⟨1, _⟩ => rfl)

/-- The decoder projection's left factor is dec[b, u, d]. -/
theorem dec_at (j : S4x256x64x512.Idx) (d : Fin 512) :
    lidx_main_v3 (idx_main_v5 (idx_main_v7 j)) d = ix3 (j 0) (j 2) d :=
  funext fun a => Fin.ext (by match a with | ⟨0, _⟩ => rfl | ⟨1, _⟩ => rfl | ⟨2, _⟩ => rfl)

/-- Its right factor is w1[k, 512 + d]: the slice keeps columns 512 … 1023. -/
theorem wdec_at (j : S4x256x64x512.Idx) (d : Fin 512) :
    idx_main_v1 (ridx_main_v3 (idx_main_v5 (idx_main_v7 j)) d) = ix2 (j 3) (decCol d) :=
  funext fun a => Fin.ext (by match a with | ⟨0, _⟩ => rfl | ⟨1, _⟩ => rfl)

/-- The repeated bias at hidden entry j is b1[k]. -/
theorem bias_at (j : S4x256x64x512.Idx) : idx_main_v9 (idx_main_v10 j) = ix1 (j 3) :=
  funext fun a => Fin.ext (by match a with | ⟨0, _⟩ => rfl)

/-! ## The hidden array and the activation -/

/-- The reference's hidden array, entry by entry, is the specification's pre-activation. -/
theorem hidden_eq (x0 : (⟨S4x256x512, .f32⟩ : BufTy).Contents (Elt Ideal)) (x1 : (⟨S4x64x512, .f32⟩ : BufTy).Contents (Elt Ideal))
    (x2 : (⟨S512x1024, .f32⟩ : BufTy).Contents (Elt Ideal)) (x3 : (⟨S512, .f32⟩ : BufTy).Contents (Elt Ideal)) (j : S4x256x64x512.Idx) :
    val_main_v11 (F := Ideal) x0 x1 x2 x3 j = hidden x0 x1 x2 x3 (j 0) (j 1) (j 2) (j 3) := by
  rw [val_main_v11_apply, val_main_v8_apply, val_main_v6_apply, val_main_v4_apply, val_main_v2_apply,
    val_main_v7_apply, val_main_v5_apply, val_main_v3_apply, val_main_v10_apply, val_main_v9_apply]
  simp only [val_main_v0_apply, val_main_v1_apply, enc_at, wenc_at, dec_at, wdec_at, bias_at, Ideal.addf_def]
  rfl

/-- The reference's activated array, entry by entry, is GELU of its hidden array there. -/
theorem act_eq (x0 : (⟨S4x256x512, .f32⟩ : BufTy).Contents (Elt Ideal)) (x1 : (⟨S4x64x512, .f32⟩ : BufTy).Contents (Elt Ideal))
    (x2 : (⟨S512x1024, .f32⟩ : BufTy).Contents (Elt Ideal)) (x3 : (⟨S512, .f32⟩ : BufTy).Contents (Elt Ideal)) (j : S4x256x64x512.Idx) :
    val_main_v24 (F := Ideal) x0 x1 x2 x3 j = gelu (val_main_v11 (F := Ideal) x0 x1 x2 x3 j) := by
  rw [val_main_v24_apply, val_main_v23_apply, val_main_v22_apply, val_main_cst_2_apply, val_main_v21_apply,
    val_main_v20_apply, val_main_cst_1_apply, val_main_v19_apply, val_main_v18_apply, val_main_v17_apply,
    val_main_cst_0_apply, val_main_v16_apply, val_main_v15_apply, val_main_v14_apply, val_main_cst_apply,
    val_main_v13_apply, val_main_v12_apply]
  rfl

/-! ## The result -/

/-- The second projection's right factor at result entry i and contraction index k is w2[v, k]. -/
theorem w2_at (i : S4x256x64x1024.Idx) (k : Fin 512) : ridx_main_v25 i k = ix2 (i 3) k :=
  funext fun a => Fin.ext (by match a with | ⟨0, _⟩ => rfl | ⟨1, _⟩ => rfl)

/-- THE REFERENCE'S RESULT is the joint network's function of the five arguments. -/
theorem result_eq (x0 : (⟨S4x256x512, .f32⟩ : BufTy).Contents (Elt Ideal)) (x1 : (⟨S4x64x512, .f32⟩ : BufTy).Contents (Elt Ideal))
    (x2 : (⟨S512x1024, .f32⟩ : BufTy).Contents (Elt Ideal)) (x3 : (⟨S512, .f32⟩ : BufTy).Contents (Elt Ideal))
    (x4 : (⟨S1024x512, .f32⟩ : BufTy).Contents (Elt Ideal)) :
    val_main_v25 (F := Ideal) x0 x1 x2 x3 x4 = joint x0 x1 x2 x3 x4 := by
  funext i
  rw [val_main_v25_apply]
  unfold joint logit
  refine Finset.sum_congr rfl fun k _ => ?_
  rw [act_eq, hidden_eq, w2_at]
  rfl

end Cert.Joint.Reference

end
-- ==== Proof.lean ====
/-
  A transducer's joint network, fused into one kernel, against its plain reference: both compute
      out[b,t,u,v] = Σ_k g( (Σ_d enc[b,t,d]·w1[k,d] + Σ_d dec[b,u,d]·w1[k,512+d]) + b1[k] ) · w2[v,k],
  g the tanh form of GELU with the same four float constants on both sides.

  The kernel tiles the encoder frames sixteen at a time over a 4 × 16 grid; at each point it forms the two projections as
  matrix products (the operands rounded to sixteen bits on the way in, which is the identity at the exact reading),
  repeats them along each other's axis, adds the bias, activates, and contracts with w2 after viewing the [16, 64, 512]
  tile as 1024 rows. The reference contracts the whole arrays and repeats by broadcasting. The two differ in the tiling,
  in where the transposes happen (the kernel's host lines transpose the weights before the launch; the reference contracts
  over the weights' second axis), and in how GELU's product of three factors is grouped: (1/2 · h) · (1 + tanh …) in the
  kernel, h · (1/2 · (1 + tanh …)) in the reference. Multiplication of extended reals is commutative and associative, so
  the two groupings are one number at every extended real; no sum is reordered, and no input needs to be finite.

  The modules: JointSpec states the network's function; RefJoint shows the reference's result is it; BodyProducts,
  LibRank3Layout and BodyValue read one grid point's stored block entry by entry; JointBlocks reads each window's block
  off the argument arrays, shows a point writes back its block of the function, and that the 64 blocks tile the result.
  Here the five claims are put together.
-/
import proofs.«159081_j59244778881348_1_alg».proof.Defs
import proofs.«159081_j59244778881348_1_alg».proof.Proof.Gen.Kernel
import proofs.«159081_j59244778881348_1_alg».proof.Proof.Gen.Kernel.Skeleton
import proofs.«159081_j59244778881348_1_alg».proof.Proof.Gen.Kernel.Launch
import proofs.«159081_j59244778881348_1_alg».proof.Proof.Gen.Kernel.Points
import proofs.«159081_j59244778881348_1_alg».proof.Proof.Gen.Kernel.Frame
import proofs.«159081_j59244778881348_1_alg».proof.Proof.Gen.KernelIdeal
import proofs.«159081_j59244778881348_1_alg».proof.Proof.Gen.KernelIdeal.Skeleton
import proofs.«159081_j59244778881348_1_alg».proof.Proof.Gen.KernelIdeal.Launch
import proofs.«159081_j59244778881348_1_alg».proof.Proof.Gen.KernelIdeal.Points
import proofs.«159081_j59244778881348_1_alg».proof.Proof.Gen.KernelIdeal.Frame
import proofs.«159081_j59244778881348_1_alg».proof.Proof.Gen.ReferenceIdeal
import proofs.«159081_j59244778881348_1_alg».proof.Proof.Gen.Pre_finite_inputs
import proofs.«159081_j59244778881348_1_alg».proof.Proof.Gen.KernelIdeal.Value
import proofs.«159081_j59244778881348_1_alg».proof.Proof.Gen.ReferenceIdeal.Run
import proofs.«159081_j59244778881348_1_alg».proof.Proof.Gen.ReferenceIdeal.Read
import proofs.«159081_j59244778881348_1_alg».proof.Proof.JointBlocks
import proofs.«159081_j59244778881348_1_alg».proof.Proof.RefJoint
import Idealize.ShloMosaic.Adequacy
import Idealize.ShloMosaic.Init

noncomputable section

namespace Cert.Proof

open Idealize.ShloMosaic Idealize.ShloMosaic.TcCoe Idealize.SL.Sem

/-- The word-level kernel runs and leaves its arguments as they were. -/
theorem frame_kernel : Cert.frame_Kernel := fun m ρ _ => Cert.Kernel.Gen.frame m ρ

/-- So does the kernel read at the exact values. -/
theorem frame_kernelIdeal : Cert.frame_KernelIdeal := fun m ρ _ => Cert.KernelIdeal.Gen.frame m ρ

/-- The reference has no launch: its frame is its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote nothing: the idealized kernel is the kernel's own text read at the exact values. -/
theorem preserves : Cert.preserves_Kernel_KernelIdeal := trivial

/-- From memories agreeing on the five arguments both programs end with the joint network's function of them in the
    result array: the kernel by its blocks, the reference by its composed stages. -/
theorem algebraic : Cert.algebraic_KernelIdeal_ReferenceIdeal := by
  intro m ρ m' ρ' _ hagree
  refine ⟨fun c => Cert.Joint.joint (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))
      (m ((c.tc : Thread Cert.KernelIdeal.nD Cert.KernelIdeal.τ).loc Cert.KernelIdeal.main_arg3)) (m ((c.tc : Thread Cert.KernelIdeal.nD Cert.KernelIdeal.τ).loc Cert.KernelIdeal.main_arg4)), Cert.Joint.Blocks.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v25_eq, Cert.Joint.Reference.result_eq, (hagree c).1, (hagree c).2.1,
    (hagree c).2.2.1, (hagree c).2.2.2.1, (hagree c).2.2.2.2]

theorem claim : Cert.Claim := ⟨Cert.Kernel.Gen.facts, Cert.KernelIdeal.Gen.facts, Cert.ReferenceIdeal.Gen.facts,
  Cert.Pre_finite_inputs.Gen.facts, frame_kernel, frame_kernelIdeal, frame_referenceIdeal, preserves, algebraic⟩

end Cert.Proof

end
